-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x1024 : Shape := ⟨2, ![64, 1024]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S64x1024x128 .f32) (main_arg1 : FVec F S64x1024 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S64x1024x128 : Shape := ⟨3, ![64, 1024, 128]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S_ : Shape := ⟨0, ![]⟩
abbrev S1x1x1024 : Shape := ⟨3, ![1, 1, 1024]⟩
abbrev S1x1024x128 : Shape := ⟨3, ![1, 1024, 128]⟩
abbrev S1x256x128 : Shape := ⟨3, ![1, 256, 128]⟩
abbrev S1x256x1024 : Shape := ⟨3, ![1, 256, 1024]⟩
abbrev S1x1024 : Shape := ⟨2, ![1, 1024]⟩
abbrev S256x1 : Shape := ⟨2, ![256, 1]⟩
abbrev S256x1024 : Shape := ⟨2, ![256, 1024]⟩
abbrev S256 : Shape := ⟨1, ![256]⟩
abbrev S1024x128 : Shape := ⟨2, ![1024, 128]⟩
abbrev S256x128 : Shape := ⟨2, ![256, 128]⟩

abbrev nBuf : Space → Nat
  | .hbm => 16
  | .vmem => 12
  | .smem => 0
  | _ => 0

abbrev bufTy : (tb : Table) → Fin (tcTables nBuf tb) → BufTy
  | .hbm, ⟨0, _⟩ => ⟨S64x1024x128, .f32⟩
  | .hbm, ⟨1, _⟩ => ⟨S64x1024, .f32⟩
  | .hbm, ⟨2, _⟩ => ⟨S64x1024, .f32⟩
  | .hbm, ⟨3, _⟩ => ⟨S64x1024x1, .f32⟩
  | .hbm, ⟨4, _⟩ => ⟨S64x1x1024, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | .hbm, ⟨8, _⟩ => ⟨S64x1024x1024, .f32⟩
  | .hbm, ⟨9, _⟩ => ⟨S_, .f32⟩
  | .hbm, ⟨10, _⟩ => ⟨S64x1024, .f32⟩
  | .hbm, ⟨11, _⟩ => ⟨S64x1x1024, .f32⟩
  | .hbm, ⟨12, _⟩ => ⟨S64x1x1024, .f32⟩
  | .hbm, ⟨13, _⟩ => ⟨S64x1024x128, .f32⟩
  | .hbm, ⟨14, _⟩ => ⟨S64x1024x1024, .f32⟩
  | .hbm, ⟨15, _⟩ => ⟨S64x1024x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x128, .f32⟩
  | .local _ .vmem, ⟨5, _⟩ => ⟨S1x1024x128, .f32⟩
  | .local _ .vmem, ⟨6, _⟩ => ⟨S1x256x128, .f32⟩
  | .local _ .vmem, ⟨7, _⟩ => ⟨S1x256x128, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  shapeCasts_S64x1024_S64x1x1024 : S64x1024.ShapeCasts S64x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  iota_S256x1_d0_w32 : S256x1.Iotas .tc 32 [0]
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  reduces_S256x1024_S256 : S256x1024.Reduces [1] S256
  shapeCasts_S256_S256x1 : S256.ShapeCasts S256x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S64x1x1024.size a
  hwx0_0 : ∀ i : grid0.Coords, EltTy.bits .f32 = 32 ∨ (Rect.block (s := S64x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S64x1024x128.size a
  hwx0_2 : ∀ i : grid0.Coords, EltTy.bits .f32 = 32 ∨ (Rect.block (s := S64x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S64x1024x128.size a
  hwx0_3 : ∀ i : grid0.Coords, EltTy.bits .f32 = 32 ∨ (Rect.block (s := S64x1024x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S64x1024x1024.size a
  hwx0_4 : ∀ i : grid0.Coords, EltTy.bits .f32 = 32 ∨ (Rect.block (s := S64x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S64x1024x1024.size a
  hwx0_5 : ∀ i : grid0.Coords, EltTy.bits .f32 = 32 ∨ (Rect.block (s := S64x1024x1024) S1x256x1024.size (cc0_transform_5 i) (hinb0_5 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v8) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S_ : Shape := ⟨0, ![]⟩
abbrev S1024 : Shape := ⟨1, ![1024]⟩
abbrev S1x1024x1 : Shape := ⟨3, ![1, 1024, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x1024, .f32⟩
  | .hbm, ⟨2, _⟩ => ⟨S64x1024, .f32⟩
  | .hbm, ⟨3, _⟩ => ⟨S64x1024x1, .f32⟩
  | .hbm, ⟨4, _⟩ => ⟨S64x1x1024, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | .hbm, ⟨8, _⟩ => ⟨S64x1024x1024, .f32⟩
  | .hbm, ⟨9, _⟩ => ⟨S_, .f32⟩
  | .hbm, ⟨10, _⟩ => ⟨S64x1024, .f32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .f32⟩
  | .hbm, ⟨22, _⟩ => ⟨S1x1024x1, .f32⟩
  | .hbm, ⟨23, _⟩ => ⟨S64x1x1024, .f32⟩
  | .hbm, ⟨24, _⟩ => ⟨S64x1024x1024, .f32⟩
  | .hbm, ⟨25, _⟩ => ⟨S64x1024x1024, .f32⟩
  | .hbm, ⟨26, _⟩ => ⟨S64x1024x1024, .f32⟩
  | .hbm, ⟨27, _⟩ => ⟨S64x1x1024, .f32⟩
  | .hbm, ⟨28, _⟩ => ⟨S64x1024x1024, .f32⟩
  | .hbm, ⟨29, _⟩ => ⟨S64x1024x1024, .f32⟩
  | .hbm, ⟨30, _⟩ => ⟨S_, .f32⟩
  | .hbm, ⟨31, _⟩ => ⟨S64x1024x1024, .f32⟩
  | .hbm, ⟨32, _⟩ => ⟨S64x1024x1024, .f32⟩
  | .hbm, ⟨33, _⟩ => ⟨S_, .f32⟩
  | .hbm, ⟨34, _⟩ => ⟨S64x1024, .f32⟩
  | .hbm, ⟨35, _⟩ => ⟨S_, .f32⟩
  | .hbm, ⟨36, _⟩ => ⟨S64x1024, .f32⟩
  | .hbm, ⟨37, _⟩ => ⟨S64x1024, .f32⟩
  | .hbm, ⟨38, _⟩ => ⟨S64x1024x1, .f32⟩
  | .hbm, ⟨39, _⟩ => ⟨S64x1024x1024, .f32⟩
  | .hbm, ⟨40, _⟩ => ⟨S64x1024x1024, .f32⟩
  | .hbm, ⟨41, _⟩ => ⟨S64x1024x1024, .f32⟩
  | .hbm, ⟨42, _⟩ => ⟨S_, .f32⟩
  | .hbm, ⟨43, _⟩ => ⟨S64x1024, .f32⟩
  | .hbm, ⟨44, _⟩ => ⟨S64x1024x1, .f32⟩
  | .hbm, ⟨45, _⟩ => ⟨S64x1024x1024, .f32⟩
  | .hbm, ⟨46, _⟩ => ⟨S64x1024x1024, .f32⟩
  | .hbm, ⟨47, _⟩ => ⟨S64x1024x128, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S1024 : S_.BroadcastsInDim S1024 (![] : Fin 0 → Fin S1024.rank)
  bcast_S1024_S1x1024x1_1 : S1024.BroadcastsInDim S1x1024x1 (![1] : Fin 1 → Fin S1x1024x1.rank)
  bcast_S1x1024x1_S64x1024x1024_0_1_2 : S1x1024x1.BroadcastsInDim S64x1024x1024 (![0, 1, 2] : Fin 3 → Fin S64x1024x1024.rank)
  bcast_S_S64x1024x1024 : S_.BroadcastsInDim S64x1024x1024 (![] : Fin 0 → Fin S64x1024x1024.rank)
  bcast_S_S64x1024 : S_.BroadcastsInDim S64x1024 (![] : Fin 0 → Fin S64x1024.rank)
  dot_S64x1024x1024_S64x1024x128_S64x1024x128_2_1_1_2_0_0_wf : DotDims.WF S64x1024x1024 S64x1024x128 S64x1024x128 [2] [1] [1] [2] [0] [0]

variable [Facts₀]

def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf

class Facts : Prop extends Facts₀ where

variable [Facts]
-- ==== Proof.Spec.lean ====
/-
  The mathematics both programs compute, row by row, on the extended reals.

  From positive weights e(b, ·) (the exponentials of the scores) and their absolute-difference row sums
  rs(b, i) = Σ_k |e(b, i) − e(b, k)|, row j of batch b of the relaxed sorting matrix has raw entries
      raw(b, j, k) = (1023 − 2j) · e(b, k) − rs(b, k),
  its normalised entries are the softmax of that row, taken in the stable form
      soft(b, j, k) = exp(raw(b, j, k) − M) / Σ_k' exp(raw(b, j, k') − M),   M = max_k raw(b, j, k),
  and the mixed output is out(b, j, z) = Σ_k soft(b, j, k) · x(b, k, z).
  Everything here is stated over functions of literal finite index types; no program is mentioned.
-/
import Idealize.ShloMosaic.PureOps.Ideal
import Idealize.ShloMosaic.Lib.ValueIdx

noncomputable section

namespace SoftSort

open Idealize.ShloMosaic Idealize.ShloMosaic.ValueIdx

/-- The value a running maximum starts from: the pattern of −∞. -/
abbrev negInf : EReal := Ideal.ofBits .f32 0xFF800000#32

/-- The scaling of row `n`: 1023 − 2n, a real number. -/
def scale (n : ℕ) : EReal := ((1023 - 2 * (n : ℝ) : ℝ) : EReal)

/-- One raw row: s · e(k) − r(k). -/
def rawRow (s : EReal) (e r : Fin 1024 → EReal) : Fin 1024 → EReal := fun k => s * e k - r k

/-- The maximum of a row, as the fold of `max` from −∞ over its 1024 positions. -/
def rowMax (f : Fin 1024 → EReal) : EReal := (Finset.univ : Finset (Fin 1024)).fold max negInf f

/-- The stable softmax of a row. -/
def softRow (f : Fin 1024 → EReal) : Fin 1024 → EReal :=
  fun k => Ideal.div (Ideal.exp (f k - rowMax f)) (∑ k' : Fin 1024, Ideal.exp (f k' - rowMax f))

/-- A row of weights applied to a column of values. -/
def mixRow (w x : Fin 1024 → EReal) : EReal := ∑ k : Fin 1024, w k * x k

variable (e rs : (⟨2, ![64, 1024]⟩ : Shape).Idx → EReal) (x : (⟨3, ![64, 1024, 128]⟩ : Shape).Idx → EReal)

/-- The raw row j of batch b. -/
def rawAt (b : Fin 64) (j : Fin 1024) : Fin 1024 → EReal :=
  rawRow (scale j.val) (fun k => e (ix2 b k)) (fun k => rs (ix2 b k))

/-- The three result arrays, each as one function of its index. -/
def Raw : (⟨3, ![64, 1024, 1024]⟩ : Shape).Idx → EReal := fun i =>
  rawAt e rs ⟨(i 0).val, (i 0).isLt⟩ ⟨(i 1).val, (i 1).isLt⟩ ⟨(i 2).val, (i 2).isLt⟩

def Soft : (⟨3, ![64, 1024, 1024]⟩ : Shape).Idx → EReal := fun i =>
  softRow (rawAt e rs ⟨(i 0).val, (i 0).isLt⟩ ⟨(i 1).val, (i 1).isLt⟩) ⟨(i 2).val, (i 2).isLt⟩

def Out : (⟨3, ![64, 1024, 128]⟩ : Shape).Idx → EReal := fun i =>
  mixRow (softRow (rawAt e rs ⟨(i 0).val, (i 0).isLt⟩ ⟨(i 1).val, (i 1).isLt⟩))
    (fun k => x (ix3 (⟨(i 0).val, (i 0).isLt⟩ : Fin 64) k (⟨(i 2).val, (i 2).isLt⟩ : Fin 128)))

/-- The arrays read at an index whose three coordinates are known. -/
theorem Raw_of_coords (i : (⟨3, ![64, 1024, 1024]⟩ : Shape).Idx) (b : Fin 64) (j k : Fin 1024)
    (h0 : (i 0).val = b.val) (h1 : (i 1).val = j.val) (h2 : (i 2).val = k.val) : Raw e rs i = rawAt e rs b j k := by
  have e0 : (⟨(i 0).val, (i 0).isLt⟩ : Fin 64) = b := Fin.ext h0
  have e1 : (⟨(i 1).val, (i 1).isLt⟩ : Fin 1024) = j := Fin.ext h1
  have e2 : (⟨(i 2).val, (i 2).isLt⟩ : Fin 1024) = k := Fin.ext h2
  unfold Raw; rw [e0, e1, e2]

theorem Soft_of_coords (i : (⟨3, ![64, 1024, 1024]⟩ : Shape).Idx) (b : Fin 64) (j k : Fin 1024)
    (h0 : (i 0).val = b.val) (h1 : (i 1).val = j.val) (h2 : (i 2).val = k.val) :
    Soft e rs i = softRow (rawAt e rs b j) k := by
  have e0 : (⟨(i 0).val, (i 0).isLt⟩ : Fin 64) = b := Fin.ext h0
  have e1 : (⟨(i 1).val, (i 1).isLt⟩ : Fin 1024) = j := Fin.ext h1
  have e2 : (⟨(i 2).val, (i 2).isLt⟩ : Fin 1024) = k := Fin.ext h2
  unfold Soft; rw [e0, e1, e2]

theorem Out_of_coords (i : (⟨3, ![64, 1024, 128]⟩ : Shape).Idx) (b : Fin 64) (j : Fin 1024) (z : Fin 128)
    (h0 : (i 0).val = b.val) (h1 : (i 1).val = j.val) (h2 : (i 2).val = z.val) :
    Out e rs x i = mixRow (softRow (rawAt e rs b j)) (fun k => x (ix3 b k z)) := by
  have e0 : (⟨(i 0).val, (i 0).isLt⟩ : Fin 64) = b := Fin.ext h0
  have e1 : (⟨(i 1).val, (i 1).isLt⟩ : Fin 1024) = j := Fin.ext h1
  have e2 : (⟨(i 2).val, (i 2).isLt⟩ : Fin 128) = z := Fin.ext h2
  unfold Out; rw [e0, e1, e2]

/-- Starting a maximum from −∞ changes nothing. -/
theorem max_negInf (y : EReal) : max negInf y = y := by
  show max (Ideal.ofBits .f32 0xFF800000#32) y = y
  simp [Ideal.ofBits, Ideal.ieee]

end SoftSort

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KernelPayload.lean ====
/-
  What the kernel body stores, read entry by entry on the extended reals.

  At grid position (b, r) the body sees one row e of weights, one row rs of row sums (both of 1024 entries, carried
  as [1, 1, 1024] blocks) and the [1, 1024, 128] block x of values. For the local row p of its 256 rows — global row
  n = 256·r + p — it stores
    * the raw row          (1023 − 2n) · e(k) − rs(k),
    * its stable softmax   exp(raw(k) − M) / Σ exp(raw(k') − M),  M the row's maximum,
    * the mixed row        Σ_k softmax(k) · x(k, z),
  the last through a matrix product into a zero accumulator (the narrowing of its operands is the identity here).
  The row index is an integer computed in 32-bit words (an iota plus 256·r) and converted exactly; both float
  constants, 1023 and 2, are exact.
-/
import proofs.«104524_j1580547974001_2_alg».proof.Proof.Gen.KernelIdeal.Skeleton
import proofs.«104524_j1580547974001_2_alg».proof.Proof.Spec
import proofs.«104524_j1580547974001_2_alg».proof.Proof.LibKeepdims
import proofs.«104524_j1580547974001_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx SoftSort

/-- The two float constants of the row scaling, and the row index as an integer. -/
theorem ofBits_1023 : Ideal.ofBits .f32 0x447FC000#32 = ((1023 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

theorem toInt_row (r p : ℕ) (hr : r < 4) (hp : p < 256) :
    (BitVec.ofNat 32 p + BitVec.ofNat 32 r * 256#32).toInt = ((r * 256 + p : ℕ) : ℤ) := by
  rw [BitVec.toInt_eq_toNat_of_lt]
  · simp only [BitVec.toNat_add, BitVec.toNat_mul, BitVec.toNat_ofNat]; omega
  · simp only [BitVec.toNat_add, BitVec.toNat_mul, BitVec.toNat_ofNat]; omega

theorem raw_apply (i : grid0.Coords) (x0 x1 : Vec Ideal S1x1x1024 .f32) (p : Fin 256) (k : Fin 1024) :
    k0_pay2 (F := Ideal) i x0 x1 (ix2 p k) = scale ((i 1).val * 256 + p.val) * x0 (ix3 (0 : Fin 1) (0 : Fin 1) k) - x1 (ix3 (0 : Fin 1) (0 : Fin 1) k) := by
  unfold k0_pay2
  dsimp only
  rw [subf_apply, mulf_apply, Keepdims.broadcastTo_a1_ab_apply, broadcastTo_1b_ab_apply, broadcastTo_1b_ab_apply,
    shapeCast_1ab_ab_apply, shapeCast_1ab_ab_apply, subf_apply, mulf_apply, broadcast_apply, broadcast_apply, sitofp_apply]
  have hr : (i 1).val < 4 := (i 1).isLt
  have hint : (addi (iota Kind.tc S256x1 32 [0] iota_S256x1_d0_w32) (broadcast S256x1 (Scalar.muli (BitVec.ofNat 32 (i 1).val) 256#32)) (ix2 p (0 : Fin 1)))
      = BitVec.ofNat 32 p.val + BitVec.ofNat 32 (i 1).val * 256#32 := by
    show iota Kind.tc S256x1 32 [0] iota_S256x1_d0_w32 (ix2 p (0 : Fin 1)) + _ = _
    rw [iota_single_apply]; rfl
  rw [hint]
  show (Ideal.ofBits .f32 0x447FC000#32 - Ideal.ofBits .f32 0x40000000#32 * (((BitVec.ofNat 32 p.val + BitVec.ofNat 32 (i 1).val * 256#32).toInt : ℝ) : EReal)) * _ - _ = _
  rw [ofBits_1023, ofBits_two, toInt_row _ _ hr p.isLt, Int.cast_natCast, ← EReal.coe_mul, ← EReal.coe_sub]
  rfl

/-- Putting coordinate k back into a row index p of a [256, 1024] array gives (p, k). -/
theorem lift_row (h : S256x1024.Reduces [1] S256) (p : Fin 256) (k : Fin (S256x1024.size 1)) :
    h.lift (ix1 p) k = ix2 p (⟨k.val, k.isLt⟩ : Fin 1024) := by
  funext c; apply Fin.ext
  fin_cases c <;> rfl

/-- A lane maximum from −∞ over the rows of a [256, 1024] array, at row p, is that row's maximum. -/
theorem rowMax_apply (P : FVec Ideal S256x1024 .f32) (hφ : FKind.Formats .f32)
    (hacc : (0xFF800000#32 : BitVec 32) = FKind.maximumf.neutral .f32 hφ) (p : Fin 256) :
    multiReduction .maximumf [1] S256 P 0xFF800000#32 reduces_S256x1024_S256 hφ hacc (ix1 p) = rowMax (fun k => P (ix2 p k)) := by
  refine (Ideal.multiReduction_maximumf_single P _ reduces_S256x1024_S256 hφ hacc (ix1 p)).trans ?_
  have hf : (P ∘ reduces_S256x1024_S256.lift (ix1 p)) = fun k : Fin 1024 => P (ix2 p k) :=
    funext fun k => congrArg P (lift_row _ p k)
  exact congrArg (fun f => Finset.fold max (Ideal.ofBits .f32 0xFF800000#32) f (Finset.univ : Finset (Fin 1024))) hf

/-- A lane sum from zero over the rows of a [256, 1024] array, at row p, is that row's sum. -/
theorem rowSum_apply (Q : FVec Ideal S256x1024 .f32) (hφ : FKind.Formats .f32)
    (hacc : (0x00000000#32 : BitVec 32) = FKind.add.neutral .f32 hφ) (p : Fin 256) :
    multiReduction .add [1] S256 Q 0x00000000#32 reduces_S256x1024_S256 hφ hacc (ix1 p) = ∑ k : Fin 1024, Q (ix2 p k) := by
  refine (Ideal.multiReduction_add_single Q _ reduces_S256x1024_S256 hφ hacc (ix1 p)).trans ?_
  exact Finset.sum_congr rfl fun k _ => congrArg Q (lift_row _ p k)

/-- The normalised tile at (p, k) is the stable softmax of row p of the raw tile. -/
theorem soft_apply (i : grid0.Coords) (x0 x1 : Vec Ideal S1x1x1024 .f32) (p : Fin 256) (k : Fin 1024) :
    k0_pay4 (F := Ideal) i x0 x1 (ix2 p k) = softRow (fun k' => k0_pay2 (F := Ideal) i x0 x1 (ix2 p k')) k := by
  unfold k0_pay4
  dsimp only
  generalize k0_pay2 (F := Ideal) i x0 x1 = P
  rw [divf_apply, Keepdims.broadcastTo_a1_ab_apply, Keepdims.shapeCast_a_a1_apply]
  -- the same statement with the two lane reductions as variables, each known at row p
  have key : ∀ (M : FVec Ideal S256 .f32), M (ix1 p) = rowMax (fun k' => P (ix2 p k')) →
      ∀ (Sm : FVec Ideal S256 .f32),
        Sm (ix1 p) = ∑ k' : Fin 1024, exp (subf P (broadcastTo S256x1024 (shapeCast S256x1 M shapeCasts_S256_S256x1) broadcasts_S256x1_S256x1024)) (ix2 p k') →
      Ideal.div (exp (subf P (broadcastTo S256x1024 (shapeCast S256x1 M shapeCasts_S256_S256x1) broadcasts_S256x1_S256x1024)) (ix2 p k)) (Sm (ix1 p))
        = softRow (fun k' => P (ix2 p k')) k := by
    intro M hMp Sm hSm
    have hE : ∀ k' : Fin 1024, exp (subf P (broadcastTo S256x1024 (shapeCast S256x1 M shapeCasts_S256_S256x1) broadcasts_S256x1_S256x1024)) (ix2 p k')
        = Ideal.exp (P (ix2 p k') - rowMax (fun k'' => P (ix2 p k''))) := by
      intro k'
      show Ideal.exp (P (ix2 p k') - broadcastTo S256x1024 (shapeCast S256x1 M shapeCasts_S256_S256x1) broadcasts_S256x1_S256x1024 (ix2 p k')) = _
      rw [Keepdims.broadcastTo_a1_ab_apply, Keepdims.shapeCast_a_a1_apply, hMp]
    rw [hSm, hE]
    unfold softRow
    simp only [hE]
  exact key _ (rowMax_apply P _ _ p) _ (rowSum_apply _ _ _ p)

/-- The dimension numbers of the body's matrix product are those of a plain [256, 1024] × [1024, 128] product. -/
theorem isPlain : PlainDot.IsPlain dot_S256x1024_S1024x128_S256x128_1_0_0_1_n_n where
  rank := rfl
  size := rfl
  lhs0 := fun i q => by
    unfold DotDims.lhsIdx
    rw [dif_neg (show ¬(0 : Fin S256x1024.rank) ∈ dot_S256x1024_S1024x128_S256x128_1_0_0_1_n_n.lhsBatch by decide),
      dif_pos (show (0 : Fin S256x1024.rank) ∈ dot_S256x1024_S1024x128_S256x128_1_0_0_1_n_n.lhsNonContracting by decide)]
    rfl
  lhs1 := fun i q => dot_S256x1024_S1024x128_S256x128_1_0_0_1_n_n.lhsIdx_val_of_single rfl i q
  rhs0 := fun i q => dot_S256x1024_S1024x128_S256x128_1_0_0_1_n_n.rhsIdx_val_of_single rfl i q
  rhs1 := fun i q => by
    unfold DotDims.rhsIdx
    rw [dif_neg (show ¬(1 : Fin S1024x128.rank) ∈ dot_S256x1024_S1024x128_S256x128_1_0_0_1_n_n.rhsBatch by decide),
      dif_pos (show (1 : Fin S1024x128.rank) ∈ dot_S256x1024_S1024x128_S256x128_1_0_0_1_n_n.rhsNonContracting by decide)]
    rfl

/-- The stored product tile at (p, z): the sum over k of weights(p, k) · values(k, z). -/
theorem mix_apply (v34 : FVec Ideal S1024x128 .f32) (v35 : FVec Ideal S256x1024 .bf16) (u : Fin 1) (p : Fin 256) (z : Fin 128) :
    k0_pay1 (F := Ideal) v34 v35 (ix3 u p z) = ∑ k : Fin 1024, v35 (ix2 p k) * v34 (ix2 k z) := by
  unfold k0_pay1
  try dsimp only
  rw [shapeCast_ab_1ab_apply]
  exact PlainDot.matmul_zero_apply dot_S256x1024_S1024x128_S256x128_1_0_0_1_n_n isPlain none v35
    (truncf .bf16 v34 bitsLt_bf16_f32) p z

/-! ## The three stored blocks, entry by entry, as rows of the specification -/

variable (i : grid0.Coords) (x0 x1 : Vec Ideal S1x1x1024 .f32) (x2 : Vec Ideal S1x1024x128 .f32)

/-- Row p of the raw tile is the specification's raw row at global row 256·r + p. -/
theorem rawTile_row (p : Fin 256) :
    (fun k => k0_pay2 (F := Ideal) i x0 x1 (ix2 p k))
      = rawRow (scale ((i 1).val * 256 + p.val)) (fun k => x0 (ix3 (0 : Fin 1) (0 : Fin 1) k)) (fun k => x1 (ix3 (0 : Fin 1) (0 : Fin 1) k)) :=
  funext fun k => raw_apply i x0 x1 p k

theorem rawBlock_apply (u : Fin 1) (p : Fin 256) (k : Fin 1024) :
    k0_pay3 (F := Ideal) i x0 x1 (ix3 u p k)
      = rawRow (scale ((i 1).val * 256 + p.val)) (fun k => x0 (ix3 (0 : Fin 1) (0 : Fin 1) k)) (fun k => x1 (ix3 (0 : Fin 1) (0 : Fin 1) k)) k := by
  unfold k0_pay3
  try dsimp only
  rw [shapeCast_ab_1ab_apply]
  exact congrFun (rawTile_row i x0 x1 p) k

theorem softBlock_apply (u : Fin 1) (p : Fin 256) (k : Fin 1024) :
    k0_pay5 (F := Ideal) i x0 x1 (ix3 u p k)
      = softRow (rawRow (scale ((i 1).val * 256 + p.val)) (fun k => x0 (ix3 (0 : Fin 1) (0 : Fin 1) k)) (fun k => x1 (ix3 (0 : Fin 1) (0 : Fin 1) k))) k := by
  unfold k0_pay5
  try dsimp only
  rw [shapeCast_ab_1ab_apply, soft_apply, rawTile_row]

theorem mixBlock_apply (u : Fin 1) (p : Fin 256) (z : Fin 128) :
    k0_pay1 (F := Ideal) (k0_pay6 x2) (k0_pay7 i x0 x1) (ix3 u p z)
      = mixRow (softRow (rawRow (scale ((i 1).val * 256 + p.val)) (fun k => x0 (ix3 (0 : Fin 1) (0 : Fin 1) k)) (fun k => x1 (ix3 (0 : Fin 1) (0 : Fin 1) k))))
          (fun k => x2 (ix3 (0 : Fin 1) k z)) := by
  rw [mix_apply]
  unfold mixRow
  refine Finset.sum_congr rfl fun k _ => ?_
  have h7 : k0_pay7 (F := Ideal) i x0 x1 (ix2 p k) = k0_pay4 (F := Ideal) i x0 x1 (ix2 p k) := rfl
  have h6 : k0_pay6 (F := Ideal) x2 (ix2 k z) = x2 (ix3 (0 : Fin 1) k z) := by
    unfold k0_pay6
    try dsimp only
    exact shapeCast_1ab_ab_apply x2 _ k z
  rw [h7, h6, soft_apply, rawTile_row]

end Cert.KernelIdeal.Payload

end
-- ==== Proof.KernelBlocks.lean ====
/-
  Each stored block is a block of the specification's arrays.

  Suppose the two staged rows hold row b of the weights e and of the row sums rs, and the staged values hold batch b of
  x. Then, at grid position (·, r), entry y = (0, p, k) of a stored block equals the specification's array at any index
  I whose coordinates are (b, 256·r + p, k): the raw block is a block of Raw, the normalised block a block of Soft,
  and the mixed block a block of Out. Stated over variables of literal shapes; the pipeline's blocks are plugged in later.
-/
import proofs.«104524_j1580547974001_2_alg».proof.Proof.KernelPayload
import proofs.«104524_j1580547974001_2_alg».proof.Proof.Spec
import Idealize.ShloMosaic.Lib.ValueIdx

noncomputable section

namespace Cert.KernelIdeal.Blocks

open Cert.KernelIdeal Cert.KernelIdeal.Gen Idealize.ShloMosaic Idealize.ShloMosaic.ValueIdx SoftSort

variable (i : grid0.Coords) (x0 x1 : Vec Ideal S1x1x1024 .f32) (x2 : Vec Ideal S1x1024x128 .f32)
variable (e rs : (⟨2, ![64, 1024]⟩ : Shape).Idx → EReal) (x : (⟨3, ![64, 1024, 128]⟩ : Shape).Idx → EReal) (b : Fin 64)
variable (h0 : ∀ k : Fin 1024, x0 (ix3 (0 : Fin 1) (0 : Fin 1) k) = e (ix2 b k))
variable (h1 : ∀ k : Fin 1024, x1 (ix3 (0 : Fin 1) (0 : Fin 1) k) = rs (ix2 b k))

include h0 h1 in
/-- The staged rows give the specification's raw row of batch b at global row n. -/
theorem rawRow_eq (n : Fin 1024) :
    rawRow (scale n.val) (fun k => x0 (ix3 (0 : Fin 1) (0 : Fin 1) k)) (fun k => x1 (ix3 (0 : Fin 1) (0 : Fin 1) k)) = rawAt e rs b n := by
  unfold rawAt
  rw [show (fun k => x0 (ix3 (0 : Fin 1) (0 : Fin 1) k)) = fun k => e (ix2 b k) from funext h0,
    show (fun k => x1 (ix3 (0 : Fin 1) (0 : Fin 1) k)) = fun k => rs (ix2 b k) from funext h1]

include h0 h1 in
theorem rawBlock_eq (y : S1x256x1024.Idx) (I : (⟨3, ![64, 1024, 1024]⟩ : Shape).Idx)
    (hI0 : (I 0).val = b.val) (hI1 : (I 1).val = (i 1).val * 256 + (y 1).val) (hI2 : (I 2).val = (y 2).val) :
    k0_pay3 (F := Ideal) i x0 x1 y = Raw e rs I := by
  obtain ⟨u, p, k, rfl⟩ : ∃ (u : Fin 1) (p : Fin 256) (k : Fin 1024), y = ix3 u p k := ⟨y 0, y 1, y 2, eq_ix3 y⟩
  have hr : (i 1).val < 4 := (i 1).isLt
  rw [Payload.rawBlock_apply, Raw_of_coords e rs I b ⟨(i 1).val * 256 + p.val, by omega⟩ k hI0 hI1 hI2]
  exact congrFun (rawRow_eq x0 x1 e rs b h0 h1 ⟨(i 1).val * 256 + p.val, by omega⟩) k

include h0 h1 in
theorem softBlock_eq (y : S1x256x1024.Idx) (I : (⟨3, ![64, 1024, 1024]⟩ : Shape).Idx)
    (hI0 : (I 0).val = b.val) (hI1 : (I 1).val = (i 1).val * 256 + (y 1).val) (hI2 : (I 2).val = (y 2).val) :
    k0_pay5 (F := Ideal) i x0 x1 y = Soft e rs I := by
  obtain ⟨u, p, k, rfl⟩ : ∃ (u : Fin 1) (p : Fin 256) (k : Fin 1024), y = ix3 u p k := ⟨y 0, y 1, y 2, eq_ix3 y⟩
  have hr : (i 1).val < 4 := (i 1).isLt
  rw [Payload.softBlock_apply, Soft_of_coords e rs I b ⟨(i 1).val * 256 + p.val, by omega⟩ k hI0 hI1 hI2]
  exact congrFun (congrArg softRow (rawRow_eq x0 x1 e rs b h0 h1 ⟨(i 1).val * 256 + p.val, by omega⟩)) k

include h0 h1 in
theorem mixBlock_eq (h2 : ∀ (k : Fin 1024) (z : Fin 128), x2 (ix3 (0 : Fin 1) k z) = x (ix3 b k z))
    (y : S1x256x128.Idx) (I : (⟨3, ![64, 1024, 128]⟩ : Shape).Idx)
    (hI0 : (I 0).val = b.val) (hI1 : (I 1).val = (i 1).val * 256 + (y 1).val) (hI2 : (I 2).val = (y 2).val) :
    k0_pay1 (F := Ideal) (k0_pay6 x2) (k0_pay7 i x0 x1) y = Out e rs x I := by
  obtain ⟨u, p, z, rfl⟩ : ∃ (u : Fin 1) (p : Fin 256) (z : Fin 128), y = ix3 u p z := ⟨y 0, y 1, y 2, eq_ix3 y⟩
  have hr : (i 1).val < 4 := (i 1).isLt
  rw [Payload.mixBlock_apply, Out_of_coords e rs x I b ⟨(i 1).val * 256 + p.val, by omega⟩ z hI0 hI1 hI2,
    rawRow_eq x0 x1 e rs b h0 h1 ⟨(i 1).val * 256 + p.val, by omega⟩,
    show (fun k => x2 (ix3 (0 : Fin 1) k z)) = fun k => x (ix3 b k z) from funext fun k => h2 k z]

end Cert.KernelIdeal.Blocks

end
-- ==== Proof.LibMiddleUnit.lean ====
/-
  A matrix [a, b] recast with a unit axis in the middle, [a, 1, b], read at an index: entry (i, 0, j) of the result is
  entry (i, j) of the matrix (both are position i·b + j in row-major order). General over the extents.
-/
import Idealize.ShloMosaic.Lib.Pipeline.Value
import Idealize.ShloMosaic.Lib.ValueIdx

namespace Idealize.ShloMosaic.MiddleUnit

open Idealize.ShloMosaic Idealize.ShloMosaic.ValueIdx

variable {α : Type}

/-- A matrix `[a, b]` recast as `[a, 1, b]` reads, at `(i, u, j)`, the matrix at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MiddleUnit
-- ==== Proof.KernelArrays.lean ====
/-
  The kernel's three result arrays after the run, each as one function of the argument arrays.

  Before the launch the host computes the weights e = exp(scores) and the row sums rs, and hands both to the launch with
  a unit axis in the middle. The grid has 64 × 4 points; at point (b, r) the two small inputs' blocks are row b of e and
  of rs, the third input's block is batch b of the values, and each output's block is rows 256·r … 256·r + 255 of batch b.
  What the point writes back is therefore the corresponding block of the specification's array (Raw, Soft, Out); the
  256 blocks tile each array, so after the run each array is the specification's.
-/
import proofs.«104524_j1580547974001_2_alg».proof.Proof.KernelIdealFrame
import proofs.«104524_j1580547974001_2_alg».proof.Proof.KernelBlocks
import proofs.«104524_j1580547974001_2_alg».proof.Proof.Spec
import proofs.«104524_j1580547974001_2_alg».proof.Proof.LibMiddleUnit
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Arrays

open Cert.KernelIdeal Cert.KernelIdeal.Gen Cert.KernelIdeal.GenP Idealize.ShloMosaic Idealize.ShloMosaic.TcCoe Idealize.SL.Sem
open Idealize.ShloMosaic.ValueIdx SoftSort
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The row sums the host computes from the weights before the launch: rs(b, i) = Σ_k |e(b, i) − e(b, k)|, kept as one
    term of the weights (never opened: the reference computes the same term). -/
def rowSums (e : FVec Ideal S64x1024 .f32) : FVec Ideal S64x1024 .f32 :=
  Host.reduceAdd
    (Host.absf
      (subf
        (broadcastInDim S64x1024x1024 ![0, 1, 2] bcast_S64x1024x1_S64x1024x1024_0_1_2
          (broadcastInDim S64x1024x1 ![0, 1] bcast_S64x1024_S64x1024x1_0_1 e))
        (broadcastInDim S64x1024x1024 ![0, 1, 2] bcast_S64x1x1024_S64x1024x1024_0_1_2
          (broadcastInDim S64x1x1024 ![0, 2] bcast_S64x1024_S64x1x1024_0_2 e))))
    (constant (F := Ideal) S_ .f32 0x00000000#32) reducesTo_S64x1024x1024_S64x1024_d2 h_S_

/-- The weights e = exp(scores) as the host computes them before the launch. -/
abbrev weights (c : Dev nD) : FVec Ideal S64x1024 .f32 :=
  Host.exp (m ((c : Thread nD τ).loc main_arg1))

/-- The two small arrays the launch stages, as the region finds them: the weights and the row sums, each with a unit
    axis put in the middle. -/
theorem V_v8 (c : Dev nD) : (V m c main_v8 : S64x1x1024.Idx → EReal)
    = shapeCast S64x1x1024 (weights m c) shapeCasts_S64x1024_S64x1x1024 := by
  dsimp only [V, hostOps0]
  after_results
  rfl

theorem V_v9 (c : Dev nD) : (V m c main_v9 : S64x1x1024.Idx → EReal)
    = shapeCast S64x1x1024 (rowSums (weights m c)) shapeCasts_S64x1024_S64x1x1024 := by
  dsimp only [V, hostOps0]
  after_results
  rfl

/-- The printed index maps, decided over the 256 grid points: the three inputs move with the batch coordinate only,
    the three outputs with the batch and the row-tile coordinates. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = (grid0.coords t 1).val ∧ win0_3.index t (2 : Fin 3) = 0
    ∧ win0_4.index t (0 : Fin 3) = (grid0.coords t 0).val ∧ win0_4.index t (1 : Fin 3) = (grid0.coords t 1).val ∧ win0_4.index t (2 : Fin 3) = 0
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every (batch, row tile) pair is some grid point's. -/
theorem idx_onto : ∀ (q0 : Fin 64) (q1 : Fin 4), ∃ t : Fin cfg0.N, (grid0.coords t 0).val = q0.val ∧ (grid0.coords t 1).val = q1.val :=
  (by decide +kernel : ∀ (q0 : Fin 64) (q1 : Fin 4), ∃ t : Fin grid0.N, (grid0.coords t 0).val = q0.val ∧ (grid0.coords t 1).val = q1.val)

/-- The batch of a grid point. -/
abbrev batchOf (t : Fin cfg0.N) : Fin 64 := ⟨(grid0.coords t 0).val, (grid0.coords t 0).isLt⟩

/-! ## The input blocks at a grid point -/

/-- The first small input's block at point t is row b(t) of the weights. -/
theorem blk0_apply (c : Dev nD) (t : Fin cfg0.N) (k : Fin 1024) :
    (iblk m c 0 t : Vec Ideal S1x1x1024 .f32) (ix3 (0 : Fin 1) (0 : Fin 1) k) = weights m c (ix2 (batchOf t) k) := by
  obtain ⟨f0, f1, f2, -⟩ := idx_facts t
  unfold iblk
  rw [View.read_apply]
  show V m c main_v8 _ = _
  rw [V_v8]
  refine Eq.trans (congrArg _ ?_) (MiddleUnit.shapeCast_ab_a1b_apply (weights m c) shapeCasts_S64x1024_S64x1x1024 (batchOf t) (0 : Fin 1) k)
  funext a; apply Fin.ext
  match a with
  | ⟨0, _⟩ => show win0_0.index t (0 : Fin 3) * 1 + 1 * 0 = (grid0.coords t 0).val; rw [f0]; omega
  | ⟨1, _⟩ => show win0_0.index t (1 : Fin 3) * 1 + 1 * 0 = 0; rw [f1]
  | ⟨2, _⟩ => show win0_0.index t (2 : Fin 3) * 1024 + 1 * k.val = k.val; rw [f2]; omega

/-- The second small input's block at point t is row b(t) of the row sums. -/
theorem blk1_apply (c : Dev nD) (t : Fin cfg0.N) (k : Fin 1024) :
    (iblk m c 1 t : Vec Ideal S1x1x1024 .f32) (ix3 (0 : Fin 1) (0 : Fin 1) k) = rowSums (weights m c) (ix2 (batchOf t) k) := by
  obtain ⟨-, -, -, f0, f1, f2, -⟩ := idx_facts t
  unfold iblk
  rw [View.read_apply]
  show V m c main_v9 _ = _
  rw [V_v9]
  refine Eq.trans (congrArg _ ?_) (MiddleUnit.shapeCast_ab_a1b_apply (rowSums (weights m c)) shapeCasts_S64x1024_S64x1x1024 (batchOf t) (0 : Fin 1) k)
  funext a; apply Fin.ext
  match a with
  | ⟨0, _⟩ => show win0_1.index t (0 : Fin 3) * 1 + 1 * 0 = (grid0.coords t 0).val; rw [f0]; omega
  | ⟨1, _⟩ => show win0_1.index t (1 : Fin 3) * 1 + 1 * 0 = 0; rw [f1]
  | ⟨2, _⟩ => show win0_1.index t (2 : Fin 3) * 1024 + 1 * k.val = k.val; rw [f2]; omega

/-- The values' block at point t is batch b(t) of the first argument, as launched. -/
theorem blk2_apply (c : Dev nD) (t : Fin cfg0.N) (k : Fin 1024) (z : Fin 128) :
    (iblk m c 2 t : Vec Ideal S1x1024x128 .f32) (ix3 (0 : Fin 1) k z)
      = (m ((c : Thread nD τ).loc main_arg0) : S64x1024x128.Idx → EReal) (ix3 (batchOf t) k z) := by
  obtain ⟨-, -, -, -, -, -, f0, f1, f2, -⟩ := idx_facts t
  unfold iblk
  rw [View.read_apply]
  show V m c main_arg0 _ = _
  rw [V_main_arg0]
  refine congrArg _ ?_
  funext a; apply Fin.ext
  match a with
  | ⟨0, _⟩ => show win0_2.index t (0 : Fin 3) * 1 + 1 * 0 = (grid0.coords t 0).val; rw [f0]; omega
  | ⟨1, _⟩ => show win0_2.index t (1 : Fin 3) * 1024 + 1 * k.val = k.val; rw [f1]; omega
  | ⟨2, _⟩ => show win0_2.index t (2 : Fin 3) * 128 + 1 * z.val = z.val; rw [f2]; omega

/-! ## What each point writes back -/

/-- The raw output: point t writes back block t of the specification's raw array. -/
theorem flushed5_eq (c : Dev nD) (t : Fin cfg0.N) :
    (dats m 0 c).flushed 5 t = ((cfg0.win 5).blk t).view.read (Elt Ideal) (Raw (weights m c) (rowSums (weights m c))) := by
  obtain ⟨-, -, -, -, -, -, -, -, -, -, -, -, -, -, -, g0, g1, g2⟩ := idx_facts t
  show (cfg0.win 5).cut (grid0.coords t) ((dats m 0 c).after 5 t) = _
  rw [after0_5]
  unfold out0_5
  rw [View.canon_unit_zero hz3]
  simp only [View.ld_unit_zero (S := S1x1x1024) hz3]
  funext y
  refine Blocks.rawBlock_eq (grid0.coords t) (iblk m c 0 t) (iblk m c 1 t) (weights m c) (rowSums (weights m c)) (batchOf t)
    (blk0_apply m c t) (blk1_apply m c t) y (((cfg0.win 5).blk t).view.emb y) ?_ ?_ ?_
  · show win0_5.index t (0 : Fin 3) * 1 + 1 * (y 0).val = (grid0.coords t 0).val
    have : (y 0).val < 1 := (y 0).isLt
    rw [g0]; omega
  · show win0_5.index t (1 : Fin 3) * 256 + 1 * (y 1).val = (grid0.coords t 1).val * 256 + (y 1).val
    rw [g1]; omega
  · show win0_5.index t (2 : Fin 3) * 1024 + 1 * (y 2).val = (y 2).val
    rw [g2]; omega

/-- The normalised output: point t writes back block t of the specification's softmax array. -/
theorem flushed4_eq (c : Dev nD) (t : Fin cfg0.N) :
    (dats m 0 c).flushed 4 t = ((cfg0.win 4).blk t).view.read (Elt Ideal) (Soft (weights m c) (rowSums (weights m c))) := by
  obtain ⟨-, -, -, -, -, -, -, -, -, -, -, -, g0, g1, g2, -⟩ := idx_facts t
  show (cfg0.win 4).cut (grid0.coords t) ((dats m 0 c).after 4 t) = _
  rw [after0_4]
  unfold out0_4
  rw [View.canon_unit_zero hz3]
  simp only [View.ld_unit_zero (S := S1x1x1024) hz3]
  funext y
  refine Blocks.softBlock_eq (grid0.coords t) (iblk m c 0 t) (iblk m c 1 t) (weights m c) (rowSums (weights m c)) (batchOf t)
    (blk0_apply m c t) (blk1_apply m c t) y (((cfg0.win 4).blk t).view.emb y) ?_ ?_ ?_
  · show win0_4.index t (0 : Fin 3) * 1 + 1 * (y 0).val = (grid0.coords t 0).val
    have : (y 0).val < 1 := (y 0).isLt
    rw [g0]; omega
  · show win0_4.index t (1 : Fin 3) * 256 + 1 * (y 1).val = (grid0.coords t 1).val * 256 + (y 1).val
    rw [g1]; omega
  · show win0_4.index t (2 : Fin 3) * 1024 + 1 * (y 2).val = (y 2).val
    rw [g2]; omega

/-- The mixed output: point t writes back block t of the specification's mixed array. -/
theorem flushed3_eq (c : Dev nD) (t : Fin cfg0.N) :
    (dats m 0 c).flushed 3 t = ((cfg0.win 3).blk t).view.read (Elt Ideal)
      (Out (weights m c) (rowSums (weights m c)) (m ((c : Thread nD τ).loc main_arg0))) := by
  obtain ⟨-, -, -, -, -, -, -, -, -, g0, g1, g2, -⟩ := idx_facts t
  show (cfg0.win 3).cut (grid0.coords t) ((dats m 0 c).after 3 t) = _
  rw [after0_3]
  unfold out0_3
  rw [View.canon_unit_zero hz3]
  simp only [View.ld_unit_zero (S := S1x1x1024) hz3, View.ld_unit_zero (S := S1x1024x128) hz3]
  funext y
  refine Blocks.mixBlock_eq (grid0.coords t) (iblk m c 0 t) (iblk m c 1 t) (iblk m c 2 t) (weights m c) (rowSums (weights m c))
    (m ((c : Thread nD τ).loc main_arg0)) (batchOf t)
    (blk0_apply m c t) (blk1_apply m c t) (blk2_apply m c t) y (((cfg0.win 3).blk t).view.emb y) ?_ ?_ ?_
  · show win0_3.index t (0 : Fin 3) * 1 + 1 * (y 0).val = (grid0.coords t 0).val
    have : (y 0).val < 1 := (y 0).isLt
    rw [g0]; omega
  · show win0_3.index t (1 : Fin 3) * 256 + 1 * (y 1).val = (grid0.coords t 1).val * 256 + (y 1).val
    rw [g1]; omega
  · show win0_3.index t (2 : Fin 3) * 128 + 1 * (y 2).val = (y 2).val
    rw [g2]; omega

/-! ## The blocks tile each array -/

theorem mem_blk5 (t : Fin cfg0.N) (i : S64x1024x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v10_2).slice (win0_5.rect t)).set ↔ _
  rw [View.set_slice_whole, Rect.mem_set_unit]
  exact Iff.rfl

theorem mem_blk4 (t : Fin cfg0.N) (i : S64x1024x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v10_1).slice (win0_4.rect t)).set ↔ _
  rw [View.set_slice_whole, Rect.mem_set_unit]
  exact Iff.rfl

theorem mem_blk3 (t : Fin cfg0.N) (i : S64x1024x128.Idx) :
    i ∈ ((cfg0.win 3).blk t).view.set ↔ ∀ a : Fin 3, win0_3.index t a * S1x256x128.size a ≤ (i a).val ∧ (i a).val < win0_3.index t a * S1x256x128.size a + S1x256x128.size a := by
  show i ∈ ((View.whole main_v10_0).slice (win0_3.rect t)).set ↔ _
  rw [View.set_slice_whole, Rect.mem_set_unit]
  exact Iff.rfl

/-- Index (b, j, k) lies in the block of the point (b, j / 256). -/
theorem cover5 (i : S64x1024x1024.Idx) : ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 1024 := (i 2).isLt
  obtain ⟨t, ht0, ht1⟩ := idx_onto ⟨(i 0).val, hi0⟩ ⟨(i 1).val / 256, by omega⟩
  have ht0' : (grid0.coords t 0).val = (i 0).val := ht0
  have ht1' : (grid0.coords t 1).val = (i 1).val / 256 := ht1
  obtain ⟨-, -, -, -, -, -, -, -, -, -, -, -, -, -, -, g0, g1, g2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [g0, ht0']; omega
  | ⟨1, _⟩ => show win0_5.index t (1 : Fin 3) * 256 ≤ (i 1).val ∧ (i 1).val < win0_5.index t (1 : Fin 3) * 256 + 256; rw [g1, ht1']; omega
  | ⟨2, _⟩ => show win0_5.index t (2 : Fin 3) * 1024 ≤ (i 2).val ∧ (i 2).val < win0_5.index t (2 : Fin 3) * 1024 + 1024; rw [g2]; omega

theorem cover4 (i : S64x1024x1024.Idx) : ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1024 := (i 2).isLt
  obtain ⟨t, ht0, ht1⟩ := idx_onto ⟨(i 0).val, hi0⟩ ⟨(i 1).val / 256, by omega⟩
  have ht0' : (grid0.coords t 0).val = (i 0).val := ht0
  have ht1' : (grid0.coords t 1).val = (i 1).val / 256 := ht1
  obtain ⟨-, -, -, -, -, -, -, -, -, -, -, -, g0, g1, g2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; rw [g0, ht0']; omega
  | ⟨1, _⟩ => show win0_4.index t (1 : Fin 3) * 256 ≤ (i 1).val ∧ (i 1).val < win0_4.index t (1 : Fin 3) * 256 + 256; rw [g1, ht1']; omega
  | ⟨2, _⟩ => show win0_4.index t (2 : Fin 3) * 1024 ≤ (i 2).val ∧ (i 2).val < win0_4.index t (2 : Fin 3) * 1024 + 1024; rw [g2]; omega

theorem cover3 (i : S64x1024x128.Idx) : ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 128 := (i 2).isLt
  obtain ⟨t, ht0, ht1⟩ := idx_onto ⟨(i 0).val, hi0⟩ ⟨(i 1).val / 256, by omega⟩
  have ht0' : (grid0.coords t 0).val = (i 0).val := ht0
  have ht1' : (grid0.coords t 1).val = (i 1).val / 256 := ht1
  obtain ⟨-, -, -, -, -, -, -, -, -, g0, g1, g2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; rw [g0, ht0']; omega
  | ⟨1, _⟩ => show win0_3.index t (1 : Fin 3) * 256 ≤ (i 1).val ∧ (i 1).val < win0_3.index t (1 : Fin 3) * 256 + 256; rw [g1, ht1']; omega
  | ⟨2, _⟩ => show win0_3.index t (2 : Fin 3) * 128 ≤ (i 2).val ∧ (i 2).val < win0_3.index t (2 : Fin 3) * 128 + 128; rw [g2]; omega

/-! ## The arrays after the run -/

theorem final5 (c : Dev nD) : (dats m 0 c).arrAt 5 cfg0.N = Raw (weights m c) (rowSums (weights m c)) :=
  (dats m 0 c).arrAt_eq_of_cover 5 (Raw (weights m c) (rowSums (weights m c))) (fun t _ => flushed5_eq m c t) cover5

theorem final4 (c : Dev nD) : (dats m 0 c).arrAt 4 cfg0.N = Soft (weights m c) (rowSums (weights m c)) :=
  (dats m 0 c).arrAt_eq_of_cover 4 (Soft (weights m c) (rowSums (weights m c))) (fun t _ => flushed4_eq m c t) cover4

theorem final3 (c : Dev nD) : (dats m 0 c).arrAt 3 cfg0.N
    = Out (weights m c) (rowSums (weights m c)) (m ((c : Thread nD τ).loc main_arg0)) :=
  (dats m 0 c).arrAt_eq_of_cover 3 (Out (weights m c) (rowSums (weights m c)) (m ((c : Thread nD τ).loc main_arg0)))
    (fun t _ => flushed3_eq m c t) cover3

/-- The run, read: every weakly fair execution terminates with the three result arrays at the specification's arrays
    of the weights, the row sums and the values, the two arguments unchanged. -/
theorem run : θ_run defs (onTc (τ := τ) (main (F := Ideal))) ⟨m, fun _ => 0, ρ⟩ fun r => ∀ c : Dev nD,
      r.2.mem ((c : Thread nD τ).loc main_v10_0) = Out (weights m c) (rowSums (weights m c)) (m ((c : Thread nD τ).loc main_arg0))
      ∧ r.2.mem ((c : Thread nD τ).loc main_v10_1) = Soft (weights m c) (rowSums (weights m c))
      ∧ r.2.mem ((c : Thread nD τ).loc main_v10_2) = Raw (weights m c) (rowSums (weights m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final3 m c), ((h c).1 4).trans (final4 m c), ((h c).1 5).trans (final5 m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c)⟩)
    (run_main m ρ)

end Cert.KernelIdeal.Arrays

end
-- ==== Proof.RefValue.lean ====
/-
  The reference's three results, read index by index from its operations, are the specification's arrays of the
  weights e = exp(scores) and of the row sums rs the reference itself computes from them.

  Its row scaling is the integer 1025 − 2(j + 1) = 1023 − 2j converted exactly; its quotient by the constant 1.0 is
  the identity; its row maximum is a fold of max from −∞ (taken once more against −∞, which changes nothing); its
  row sum starts from zero; and its batched product contracts the 1024 positions of a row.
-/
import proofs.«104524_j1580547974001_2_alg».proof.Proof.Gen.ReferenceIdeal.Read
import proofs.«104524_j1580547974001_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx SoftSort

/-- The divisor 1.0 is the real 1, and dividing by it changes nothing. -/
theorem ofBits_one : Ideal.ofBits .f32 0x3F800000#32 = 1 := by
  simp [Ideal.ofBits, Ideal.ieee, -EReal.coe_mul]; norm_num

theorem div_one (x : EReal) : Ideal.div x 1 = x := by
  unfold Ideal.div; simp

/-- The integer 1025 − 2(j + 1), computed in 32-bit words and read signed, is 1023 − 2j. -/
theorem toInt_ref (j : ℕ) (hj : j < 1024) :
    (1025#32 - 2#32 * (BitVec.ofNat 32 j + 1#32)).toInt = (1023 : ℤ) - 2 * (j : ℤ) := by
  rw [BitVec.toInt_eq_toNat_cond]
  simp only [BitVec.toNat_sub, BitVec.toNat_mul, BitVec.toNat_add, BitVec.toNat_ofNat]
  split <;> omega

/-- The reference's raw array (its quotient by 1.0 included) is the specification's. -/
theorem raw_eq (x1 : (⟨S64x1024, .f32⟩ : BufTy).Contents (Elt Ideal)) :
    val_main_v25 (F := Ideal) x1 = Raw (val_main_v0 (F := Ideal) x1) (val_main_v7 (F := Ideal) x1) := by
  funext i
  rw [val_main_v25_apply, val_main_v23_apply, val_main_v20_apply, val_main_v18_apply, val_main_v16_apply, val_main_v15_apply,
    val_main_v14_apply, val_main_v13_apply, val_main_c_1_apply, val_main_v12_apply, val_main_v11_apply, val_main_c_0_apply,
    val_main_v10_apply, val_main_v8_apply, val_main_v9_apply, val_main_c_apply, val_main_v19_apply, val_main_v17_apply,
    val_main_v22_apply, val_main_v21_apply, val_main_v24_apply, val_main_cst_2_apply]
  have hj : (i 1).val < 1024 := (i 1).isLt
  have e17 : idx_main_v17 (idx_main_v19 i) = ix2 (⟨(i 0).val, (i 0).isLt⟩ : Fin 64) (⟨(i 2).val, (i 2).isLt⟩ : Fin 1024) :=
    funext fun a => Fin.ext (by match a with | ⟨0, _⟩ => rfl | ⟨1, _⟩ => rfl)
  have e21 : idx_main_v21 (idx_main_v22 i) = ix2 (⟨(i 0).val, (i 0).isLt⟩ : Fin 64) (⟨(i 2).val, (i 2).isLt⟩ : Fin 1024) :=
    funext fun a => Fin.ext (by match a with | ⟨0, _⟩ => rfl | ⟨1, _⟩ => rfl)
  rw [e17, e21]
  show Ideal.div ((((1025#32 - 2#32 * (BitVec.ofNat 32 (i 1).val + 1#32)).toInt : ℝ) : EReal) * _ - _) (Ideal.ofBits .f32 0x3F800000#32) = _
  have hc : (((1023 : ℤ) - 2 * ((i 1).val : ℤ) : ℤ) : ℝ) = 1023 - 2 * ((i 1).val : ℝ) := by push_cast; ring
  rw [ofBits_one, div_one, toInt_ref _ hj, hc]
  rfl

variable (x0 : (⟨S64x1024x128, .f32⟩ : BufTy).Contents (Elt Ideal)) (x1 : (⟨S64x1024, .f32⟩ : BufTy).Contents (Elt Ideal))

/-- Putting position k back into a row index (b, j) gives (b, j, k). -/
theorem lift3 (h : S64x1024x1024.Reduces [2] S64x1024) (b : Fin 64) (j : Fin 1024) (k : Fin (S64x1024x1024.size 2)) :
    h.lift (ix2 b j) k = ix3 b j (⟨k.val, k.isLt⟩ : Fin 1024) := by
  funext c; apply Fin.ext
  fin_cases c <;> rfl

/-- The reference's row maximum is the maximum of the raw row. -/
theorem rowMax_eq (b : Fin 64) (j : Fin 1024) :
    val_main_v28 (F := Ideal) x1 (ix2 b j) = rowMax (rawAt (val_main_v0 (F := Ideal) x1) (val_main_v7 (F := Ideal) x1) b j) := by
  rw [val_main_v28_apply, val_main_v27_apply, val_main_cst_4_apply]
  unfold val_main_v26
  rw [raw_eq]
  have hred : S64x1024x1024.Reduces [2] S64x1024 := by decide
  rw [Host.reduce_eq_fold_single FloatOps.maximumf _ _ Gen.reducesTo_S64x1024x1024_S64x1024_d2 hred Gen.h_S_]
  refine (max_negInf _).trans ?_
  unfold rowMax
  have hf : (Raw (val_main_v0 (F := Ideal) x1) (val_main_v7 (F := Ideal) x1) ∘ hred.lift (ix2 b j))
      = rawAt (val_main_v0 (F := Ideal) x1) (val_main_v7 (F := Ideal) x1) b j := funext fun k => by
    show Raw _ _ (hred.lift (ix2 b j) k) = _
    rw [lift3]
    exact Raw_of_coords _ _ _ b j _ rfl rfl rfl
  exact congrArg (fun f => Finset.fold max (Ideal.ofBits .f32 0xFF800000#32) f (Finset.univ : Finset (Fin 1024))) hf

/-- The reference's exponentials of the shifted row. -/
theorem num_eq (b : Fin 64) (j k : Fin 1024) :
    val_main_v32 (F := Ideal) x1 (ix3 b j k)
      = Ideal.exp (rawAt (val_main_v0 (F := Ideal) x1) (val_main_v7 (F := Ideal) x1) b j k
          - rowMax (rawAt (val_main_v0 (F := Ideal) x1) (val_main_v7 (F := Ideal) x1) b j)) := by
  rw [val_main_v32_apply, val_main_v31_apply, val_main_v30_apply, val_main_v29_apply, raw_eq]
  have e29 : idx_main_v29 (idx_main_v30 (ix3 b j k)) = ix2 b j :=
    funext fun a => Fin.ext (by match a with | ⟨0, _⟩ => rfl | ⟨1, _⟩ => rfl)
  rw [e29, rowMax_eq, Raw_of_coords _ _ (ix3 b j k) b j k rfl rfl rfl]
  rfl

/-- The reference's normalised entry is the stable softmax of the raw row. -/
theorem soft_at (b : Fin 64) (j k : Fin 1024) :
    val_main_v36 (F := Ideal) x1 (ix3 b j k)
      = softRow (rawAt (val_main_v0 (F := Ideal) x1) (val_main_v7 (F := Ideal) x1) b j) k := by
  rw [val_main_v36_apply, val_main_v35_apply, val_main_v34_apply]
  have e34 : idx_main_v34 (idx_main_v35 (ix3 b j k)) = ix2 b j :=
    funext fun a => Fin.ext (by match a with | ⟨0, _⟩ => rfl | ⟨1, _⟩ => rfl)
  rw [e34, val_main_v33_apply, val_main_cst_5_apply, num_eq]
  have hs : ∀ k' : Fin 1024, val_main_v32 (F := Ideal) x1 (idx_main_v33 (ix2 b j) k')
      = Ideal.exp (rawAt (val_main_v0 (F := Ideal) x1) (val_main_v7 (F := Ideal) x1) b j k'
          - rowMax (rawAt (val_main_v0 (F := Ideal) x1) (val_main_v7 (F := Ideal) x1) b j)) := fun k' => by
    have e33 : idx_main_v33 (ix2 b j) k' = ix3 b j k' :=
      funext fun a => Fin.ext (by match a with | ⟨0, _⟩ => rfl | ⟨1, _⟩ => rfl | ⟨2, _⟩ => rfl)
    rw [e33, num_eq]
  simp only [hs]
  unfold softRow
  show Ideal.div _ (Ideal.ofBits .f32 0x00000000#32 + _) = _
  rw [Ideal.ofBits_zero_f32, zero_add]

theorem soft_eq : val_main_v36 (F := Ideal) x1 = Soft (val_main_v0 (F := Ideal) x1) (val_main_v7 (F := Ideal) x1) := by
  funext i
  obtain ⟨b, j, k, rfl⟩ : ∃ (b : Fin 64) (j k : Fin 1024), i = ix3 b j k := ⟨i 0, i 1, i 2, eq_ix3 i⟩
  rw [soft_at]
  exact (Soft_of_coords _ _ _ b j k rfl rfl rfl).symm

/-- The reference's batched product mixes each softmax row with the batch's values. -/
theorem out_eq : val_main_v37 (F := Ideal) x0 x1 = Out (val_main_v0 (F := Ideal) x1) (val_main_v7 (F := Ideal) x1) x0 := by
  funext i
  obtain ⟨b, j, z, rfl⟩ : ∃ (b : Fin 64) (j : Fin 1024) (z : Fin 128), i = ix3 b j z := ⟨i 0, i 1, i 2, eq_ix3 i⟩
  rw [val_main_v37_apply, Out_of_coords _ _ _ _ b j z rfl rfl rfl]
  unfold mixRow
  refine Finset.sum_congr rfl fun k _ => ?_
  have el : lidx_main_v37 (ix3 b j z) k = ix3 b j k :=
    funext fun a => Fin.ext (by match a with | ⟨0, _⟩ => rfl | ⟨1, _⟩ => rfl | ⟨2, _⟩ => rfl)
  have er : ridx_main_v37 (ix3 b j z) k = ix3 b k z :=
    funext fun a => Fin.ext (by match a with | ⟨0, _⟩ => rfl | ⟨1, _⟩ => rfl | ⟨2, _⟩ => rfl)
  rw [el, er, soft_at]

end Cert.ReferenceIdeal.RefValue

end
-- ==== Proof.lean ====
/-
  The certificate's claims for the relaxed sorting kernel against its array reference.

  Both programs compute, from weights e = exp(scores) and the row sums rs(b, i) = Σ_k |e(b, i) − e(b, k)|,
    raw(b, j, k)  = (1023 − 2j) · e(b, k) − rs(b, k),
    soft(b, j, ·) = the stable softmax of row raw(b, j, ·),
    out(b, j, z)  = Σ_k soft(b, j, k) · x(b, k, z),
  and return (out, soft, raw). The kernel computes e and rs on the host exactly as the reference does, then one grid
  point per (batch, tile of 256 rows) computes its rows; the reference computes whole arrays, divides raw by the constant
  1.0 and contracts with one batched product. On the extended reals the two agree entry by entry with no side condition:
  the row scaling is the same integer converted exactly, a quotient by 1 is the identity, both maxima start from −∞,
  both sums from 0, and the product sums the same 1024 terms. The precondition is never opened.

  The frames of the two kernel programs are the frame certificates over the launch; the reference's frame is its run
  with the results dropped; nothing was rewritten between the kernel and its idealization.
-/
import proofs.«104524_j1580547974001_2_alg».proof.Defs
import proofs.«104524_j1580547974001_2_alg».proof.Proof.Gen.Kernel
import proofs.«104524_j1580547974001_2_alg».proof.Proof.Gen.Kernel.Skeleton
import proofs.«104524_j1580547974001_2_alg».proof.Proof.Gen.Kernel.Launch
import proofs.«104524_j1580547974001_2_alg».proof.Proof.Gen.Kernel.Points
import proofs.«104524_j1580547974001_2_alg».proof.Proof.KernelFrame
import proofs.«104524_j1580547974001_2_alg».proof.Proof.Gen.KernelIdeal
import proofs.«104524_j1580547974001_2_alg».proof.Proof.Gen.KernelIdeal.Skeleton
import proofs.«104524_j1580547974001_2_alg».proof.Proof.Gen.KernelIdeal.Launch
import proofs.«104524_j1580547974001_2_alg».proof.Proof.Gen.KernelIdeal.Points
import proofs.«104524_j1580547974001_2_alg».proof.Proof.KernelIdealFrame
import proofs.«104524_j1580547974001_2_alg».proof.Proof.Gen.ReferenceIdeal
import proofs.«104524_j1580547974001_2_alg».proof.Proof.Gen.ReferenceIdeal.Run
import proofs.«104524_j1580547974001_2_alg».proof.Proof.Gen.ReferenceIdeal.Read
import proofs.«104524_j1580547974001_2_alg».proof.Proof.Gen.Pre_finite_inputs
import proofs.«104524_j1580547974001_2_alg».proof.Proof.KernelArrays
import proofs.«104524_j1580547974001_2_alg».proof.Proof.RefValue
import Idealize.ShloMosaic.Adequacy
import Idealize.ShloMosaic.Init

noncomputable section

namespace Cert.Proof

open Idealize.ShloMosaic Idealize.ShloMosaic.TcCoe Idealize.SL.Sem SoftSort

/-- The reference's row sums are the term the kernel's host side computes from the same weights. -/
theorem rowSums_eq (x : FVec Ideal (⟨2, ![64, 1024]⟩ : Shape) .f32) :
    Cert.ReferenceIdeal.Read.val_main_v7 (F := Ideal) x
      = Cert.KernelIdeal.Arrays.rowSums (Cert.ReferenceIdeal.Read.val_main_v0 (F := Ideal) x) := rfl

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- No operation was rewritten between the kernel and its idealization. -/
theorem preserves : Cert.preserves_Kernel_KernelIdeal := trivial

/-- From memories agreeing on the arguments, the kernel's three arrays end at the specification's arrays of
    exp(scores), its row sums and the values (the launch read block by block), and so do the reference's (its
    operations read index by index). -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨h37, h36, h25, ha0, ha1⟩ := h c
  refine ⟨h37.trans ?_, h36.trans ?_, h25.trans ?_, ha0, ha1⟩
  · rw [Cert.ReferenceIdeal.Read.val_main_v37_eq, Cert.ReferenceIdeal.RefValue.out_eq, (hagree c).1, (hagree c).2, rowSums_eq]
    rfl
  · rw [Cert.ReferenceIdeal.Read.val_main_v36_eq, Cert.ReferenceIdeal.RefValue.soft_eq, (hagree c).2, rowSums_eq]
    rfl
  · refine (Cert.ReferenceIdeal.Read.val_main_v25_eq _).trans ?_
    rw [Cert.ReferenceIdeal.RefValue.raw_eq, (hagree c).2, rowSums_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
